-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x4096x1 : Shape := ⟨3, ![8, 4096, 1]⟩
abbrev S8x1x4096 : Shape := ⟨3, ![8, 1, 4096]⟩
abbrev S1x512x3 : Shape := ⟨3, ![1, 512, 3]⟩
abbrev S1x3x4096 : Shape := ⟨3, ![1, 3, 4096]⟩
abbrev S1x512x1 : Shape := ⟨3, ![1, 512, 1]⟩
abbrev S1x1x4096 : Shape := ⟨3, ![1, 1, 4096]⟩
abbrev S1x4096 : Shape := ⟨2, ![1, 4096]⟩
abbrev S512x3 : Shape := ⟨2, ![512, 3]⟩
abbrev S3x4096 : Shape := ⟨2, ![3, 4096]⟩
abbrev S512 : Shape := ⟨1, ![512]⟩
abbrev S512x1 : Shape := ⟨2, ![512, 1]⟩
abbrev S4096 : Shape := ⟨1, ![4096]⟩
abbrev S512x4096 : Shape := ⟨2, ![512, 4096]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x4096x1, .f32⟩
  | .hbm, ⟨4, _⟩ => ⟨S8x1x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x4096, .f32⟩
  | .local _ .vmem, ⟨3, _⟩ => ⟨S1x3x4096, .f32⟩
  | .local _ .vmem, ⟨4, _⟩ => ⟨S1x512x1, .f32⟩
  | .local _ .vmem, ⟨5, _⟩ => ⟨S1x512x1, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_16 : BitVec 32 := 0#32
  let v32 : BitVec 1 := Scalar.cmpi .ne v31 c0_i32_16
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S512x3_S512 : S512x3.Reduces [1] S512
  shapeCasts_S512_S512x1 : S512.ShapeCasts S512x1
  reduces_S3x4096_S4096 : S3x4096.Reduces [0] S4096
  shapeCasts_S4096_S1x4096 : S4096.ShapeCasts S1x4096
  broadcasts_S512x1_S512x4096 : S512x1.Broadcasts S512x4096
  broadcasts_S1x4096_S512x4096 : S1x4096.Broadcasts S512x4096
  reduces_S512x4096_S512 : S512x4096.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reduces_S512x4096_S4096 : S512x4096.Reduces [0] S4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reducesTo_S8x4096x1_S_d0_1_2 : S8x4096x1.ReducesTo [0, 1, 2] S_
  h_S_ : 0 < S_.numel
  reducesTo_S8x1x4096_S_d0_1_2 : S8x1x4096.ReducesTo [0, 1, 2] S_
  dot_S512x3_S3x4096_S512x4096_1_0_0_1_n_n_wf : DotDims.WF S512x3 S3x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x4096x3.size a
  hwx0_0 : ∀ i : grid0.Coords, EltTy.bits .f32 = 32 ∨ (Rect.block (s := S8x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x4096x1.size a
  hwx0_2 : ∀ i : grid0.Coords, EltTy.bits .f32 = 32 ∨ (Rect.block (s := S8x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf

abbrev win0_0 : Pipeline.Window sig grid0 :=
  Pipeline.Window.ofSpec (Memref.whole main_arg1) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S_d0_1 : S8x4096.ReducesTo [0, 1] S_
  reducesTo_S8x4096x4096_S8x4096_d2 : S8x4096x4096.ReducesTo [2] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.LibWholeStore.lean ====
import Idealize.ShloMosaic.Lib.Pipeline.Value
import Idealize.ShloMosaic.Lib.Pipeline.Frame

/-
  Whole-buffer loads and stores read back (any signature, memory space, shape and element type):

  * read_after_whole_store — after a store through the rectangle that is the whole shape (zero offsets, however the zeros
    are spelt), made last, the buffer reads the stored value, whatever it held and whatever was stored before;
  * load_whole — a load through that rectangle of a whole memref holding `X` reads `X`.
-/

namespace Cert.LibWholeStore

open Idealize.ShloMosaic

/-- A store through the whole-shape rectangle, made last, is what the buffer then reads. -/
theorem read_after_whole_store {sig : RefSig} {κ : Kind} {sp : Space} {Val : EltTy → Type} {S : Shape} {e : EltTy}
    (v : View sig κ sp S e) (f : v.ty.Contents Val)
    {off : Fin S.rank → ℕ} (hz : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  subst hz; funext y
  have e := View.read_writes_cons_emb v f (Rect.whole S) w L y
  rw [Rect.emb_whole_apply] at e
  exact e

/-- A load through the whole-shape rectangle of a whole memref reads its contents. -/
theorem load_whole {sig : RefSig} {κ : Kind} {sp : Space} {Val : EltTy → Type} {S : Shape} {e : EltTy}
    (m : Memref sig κ sp S e) (hm : m.IsWhole)
    {off : Fin S.rank → ℕ} (hz : off = fun _ => 0) (inb : ∀ a, off a + S.size a ≤ S.size a) (X : S.Idx → Val e) :
    View.readAt Val m.view (Rect.unit off S.size inb).toLoadRect (hm.unread X) = X := by
  rw [View.readAt_eq_ld, hm.read_unread, View.ld_unit_zero hz]

end Cert.LibWholeStore
-- ==== Proof.BodyBits.lean ====
import proofs.«106484_j66271345377749_2_alg».proof.Proof.Gen.Kernel.Frame
import proofs.«106484_j66271345377749_2_alg».proof.Proof.Gen.Kernel.Skeleton
import proofs.«106484_j66271345377749_2_alg».proof.Proof.LibWholeStore

set_option maxRecDepth 16384

noncomputable section

namespace Cert.Kernel.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.LibWholeStore

/-! # The kernel body, run once per kind of grid point

The grid is (batch b, tile i) with i innermost.  At every point the body reads a tile of 512 ground-truth
rows and all 4096 predicted points of the batch, forms the 512 x 4096 matrix of squared distances
P = (xx + yy) - 2 zz, and stores the row minima (over the predicted points) into its first output block.
The column minima (over the 512 rows of this tile) go to a scratch row that lives across the tiles of one
batch: at the first tile (i = 0) the scratch is overwritten with them, at every later tile it is replaced by
its elementwise minimum with them, and at the last tile (i = 7) the scratch is copied to the second output
block.  Three kinds of point therefore: first, middle, last.  Each theorem below runs the whole body on any
whole memrefs and says what every buffer holds afterwards, generically in the float instance. -/

variable {F : FTy → Type} [FloatOps F]

local notation "𝕄" => MT nD τ sig Unit (Elt F) ℕ (UR sig nD τ) ℕ

/-- The three branch conditions as the body computes them from the tile coordinate. -/
abbrev atFirst (i : grid0.Coords) : Prop := (Scalar.cmpi .ne (Scalar.extui (Scalar.cmpi .eq (BitVec.ofNat 32 (i 1).val) 0#32)) 0#32) = 1#1
abbrev pastFirst (i : grid0.Coords) : Prop := (Scalar.cmpi .ne (Scalar.extui (Scalar.cmpi .ne (BitVec.ofNat 32 (i 1).val) 0#32)) 0#32) = 1#1
abbrev atLast (i : grid0.Coords) : Prop := k0_cond3 i = 1#1

theorem zeros3 : (![0, 0, 0] : Fin 3 → ℕ) = fun _ => 0 := by funext a; fin_cases a <;> rfl
theorem zeros2 : (![0, 0] : Fin 2 → ℕ) = fun _ => 0 := by funext a; fin_cases a <;> rfl

set_option maxHeartbeats 1000000 in
/-- FIRST tile of a batch: rows stored, scratch overwritten with this tile's column minima, second output untouched. -/
theorem body_first (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (arg6 : Memref sig .tc .vmem S1x4096 .f32) (harg6 : arg6.IsWhole)
    (h1 : atFirst i) (h2 : ¬pastFirst i) (h3 : ¬atLast i)
    (x0 : Vec F S1x512x3 .f32) (x1 : Vec F S1x3x4096 .f32) (y5 : Vec F S1x1x4096 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare y5
        ∗ (∃ d, owns (c : Thread nD τ) arg6 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare y5
            ∗ owns (c : Thread nD τ) arg6 fullShare (k0_pay4 x0 x1)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%d4, %f4, -, H4⟩, ⟨%f5, %hf5, H5⟩, ⟨%d6, %f6, -, H6⟩, Hk⟩
  obtain rfl := harg2.eq_unread hf0; obtain rfl := harg3.eq_unread hf1
  sl_exec (disch := first | exact h1 | exact h2 | exact h3)
  sl_step
  iapply Hk
  isplitl [H0]; · iexists _; isplitr; · ipureintro; exact hf0
                  iexact H0
  isplitl [H1]; · iexists _; isplitr; · ipureintro; exact hf1
                  iexact H1
  isplitl [H4]
  · iexists _; isplitr; swap; · iexact H4
    ipureintro
    rw [read_after_whole_store _ _ zeros3, load_whole arg2 harg2 zeros3, load_whole arg3 harg3 zeros3]
  isplitl [H5]; · iexists _; isplitr; · ipureintro; exact hf5
                  iexact H5
  iexists _; isplitr; swap; · iexact H6
  ipureintro
  rw [read_after_whole_store _ _ zeros2, load_whole arg2 harg2 zeros3, load_whole arg3 harg3 zeros3]

set_option maxHeartbeats 1000000 in
/-- A MIDDLE tile: rows stored, scratch replaced by its minimum with this tile's column minima, second output untouched. -/
theorem body_middle (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (arg6 : Memref sig .tc .vmem S1x4096 .f32) (harg6 : arg6.IsWhole)
    (h1 : ¬atFirst i) (h2 : pastFirst i) (h3 : ¬atLast i)
    (x0 : Vec F S1x512x3 .f32) (x1 : Vec F S1x3x4096 .f32) (y5 : Vec F S1x1x4096 .f32) (s : Vec F S1x4096 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare y5
        ∗ owns (c : Thread nD τ) arg6 fullShare s
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare y5
            ∗ owns (c : Thread nD τ) arg6 fullShare (k0_pay5 x0 x1 s)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1; obtain rfl := harg6.eq_unread hf6
  sl_exec (disch := first | exact h1 | exact h2 | exact h3)
  sl_step
  iapply Hk
  isplitl [H0]; · iexists _; isplitr; · ipureintro; exact hf0
                  iexact H0
  isplitl [H1]; · iexists _; isplitr; · ipureintro; exact hf1
                  iexact H1
  isplitl [H4]
  · iexists _; isplitr; swap; · iexact H4
    ipureintro
    rw [read_after_whole_store _ _ zeros3, load_whole arg2 harg2 zeros3, load_whole arg3 harg3 zeros3]
  isplitl [H5]; · iexists _; isplitr; · ipureintro; exact hf5
                  iexact H5
  iexists _; isplitr; swap; · iexact H6
  ipureintro
  rw [read_after_whole_store _ _ zeros2, load_whole arg2 harg2 zeros3, load_whole arg3 harg3 zeros3, load_whole arg6 harg6 zeros2]

set_option maxHeartbeats 1000000 in
/-- The LAST tile: as a middle tile, and then the scratch is copied into the second output block. -/
theorem body_last (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (arg6 : Memref sig .tc .vmem S1x4096 .f32) (harg6 : arg6.IsWhole)
    (h1 : ¬atFirst i) (h2 : pastFirst i) (h3 : atLast i)
    (x0 : Vec F S1x512x3 .f32) (x1 : Vec F S1x3x4096 .f32) (s : Vec F S1x4096 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare s
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay6 (k0_pay5 x0 x1 s))
            ∗ owns (c : Thread nD τ) arg6 fullShare (k0_pay5 x0 x1 s)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%d4, %f4, -, H4⟩, ⟨%d5, %f5, -, H5⟩, ⟨%f6, %hf6, H6⟩, Hk⟩
  obtain rfl := harg2.eq_unread hf0; obtain rfl := harg3.eq_unread hf1; obtain rfl := harg6.eq_unread hf6
  sl_exec (disch := first | exact h1 | exact h2 | exact h3)
  sl_step
  sl_unfold_words
  iapply Hk
  isplitl [H0]; · iexists _; isplitr; · ipureintro; exact hf0
                  iexact H0
  isplitl [H1]; · iexists _; isplitr; · ipureintro; exact hf1
                  iexact H1
  isplitl [H4]
  · iexists _; isplitr; swap; · iexact H4
    ipureintro
    rw [read_after_whole_store _ _ zeros3, load_whole arg2 harg2 zeros3, load_whole arg3 harg3 zeros3]
  isplitl [H5]
  · iexists _; isplitr; swap; · iexact H5
    ipureintro
    rw [read_after_whole_store _ _ zeros3, View.readCov_unit_zero _ zeros2, load_whole arg2 harg2 zeros3, load_whole arg3 harg3 zeros3,
      load_whole arg6 harg6 zeros2]
  iexists _; isplitr; swap; · iexact H6
  ipureintro
  rw [read_after_whole_store _ _ zeros2, load_whole arg2 harg2 zeros3, load_whole arg3 harg3 zeros3, load_whole arg6 harg6 zeros2]

end Cert.Kernel.Chamfer

end
-- ==== Proof.DataBits.lean ====
import proofs.«106484_j66271345377749_2_alg».proof.Proof.BodyBits

set_option maxRecDepth 16384

noncomputable section

namespace Cert.Kernel.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

/-! # The region's run: what every buffer holds after every grid point

The pipeline visits the 64 points in order, point t = 8 b + i.  The two inputs are found at their blocks.
The first output's staging buffer is stored whole at every point and written back at every point.  The scratch
row carries the running column minimum: after point t it holds `colAcc t`, defined by recursion on t —
this tile's column minima at the first tile of a batch, and otherwise the minimum of what the point before left
with this tile's.  The second output's staging buffer is stored only at the last tile of a batch (with the scratch)
and is written back only there; at the other points the body does not touch it. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid, and where the second output is idle -/

theorem atFirst_iff : ∀ t : Fin cfg0.N, atFirst (grid0.coords t) ↔ t.val % 8 = 0 :=
  (by decide +kernel : ∀ t : Fin grid0.N, atFirst (grid0.coords t) ↔ t.val % 8 = 0)
theorem pastFirst_iff : ∀ t : Fin cfg0.N, pastFirst (grid0.coords t) ↔ ¬t.val % 8 = 0 :=
  (by decide +kernel : ∀ t : Fin grid0.N, pastFirst (grid0.coords t) ↔ ¬t.val % 8 = 0)
theorem atLast_iff : ∀ t : Fin cfg0.N, atLast (grid0.coords t) ↔ t.val % 8 = 7 :=
  (by decide +kernel : ∀ t : Fin grid0.N, atLast (grid0.coords t) ↔ t.val % 8 = 7)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬t.val % 8 = 7 → cfg0.idle 3 (grid0.coords t) = true := by decide +kernel
theorem kept3 : ∀ t : Fin cfg0.N, ¬t.val % 8 = 7 → (cfg0.win 3).flush t = false := by decide +kernel
theorem live3 : ∀ t : Fin cfg0.N, t.val % 8 = 7 → cfg0.idle 3 (grid0.coords t) = false := by decide +kernel

/-! ## The memrefs the body is called with -/

abbrev mem0 (t : Fin cfg0.N) : Memref sig .tc .vmem S1x512x3 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S1x3x4096 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1x512x1 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1x1x4096 .f32 := win0_3.stage (cfg0.slots t 3)
abbrev whole3 (t : Fin cfg0.N) : (mem3 t).IsWhole := hstage0_3 ((cfg0.slots t 3).cast nbuf0_3)
/-- The scratch row: a whole scoped buffer of the kernel's own. -/
abbrev scratchMem : Memref sig .tc .vmem S1x4096 .f32 := Memref.whole cc0_scratch0

/-- What the launch hands the region beside the windows: the scratch at some contents and the generator register. -/
theorem PhiA_eq (c : Dev nD) :
    (Pipeline.ΦA spec0 c : sProp 𝕄)
      = iprop(iprop((∃ d, owns (c : Thread nD τ) scratchMem fullShare d)) ∗ (∃ r, prngReg c r)) := by
  unfold Pipeline.ΦA; rw [scopedRest0_eq]; simp only [scratchMem, owns_whole]; try rfl

/-! ## The running column minimum -/

/-- What the scratch row holds after point `n`. -/
def colAcc (c : Dev nD) : (n : ℕ) → n < cfg0.N → Vec F S1x4096 .f32
  | 0, hn => k0_pay4 (iblk m c 0 ⟨0, hn⟩) (iblk m c 1 ⟨0, hn⟩)
  | n + 1, hn =>
    if (n + 1) % 8 = 0 then k0_pay4 (iblk m c 0 ⟨n + 1, hn⟩) (iblk m c 1 ⟨n + 1, hn⟩)
    else k0_pay5 (iblk m c 0 ⟨n + 1, hn⟩) (iblk m c 1 ⟨n + 1, hn⟩) (colAcc c n (Nat.lt_of_succ_lt hn))

/-- At the first tile of a batch the scratch is this tile's column minima. -/
theorem colAcc_first (c : Dev nD) (t : Fin cfg0.N) (h : t.val % 8 = 0) :
    colAcc m c t.val t.isLt = k0_pay4 (iblk m c 0 t) (iblk m c 1 t) := by
  obtain ⟨n, hn⟩ := t
  cases n with
  | zero => rfl
  | succ n => exact if_pos h

/-- At a later tile it is the minimum of what the point before left with this tile's column minima. -/
theorem colAcc_later (c : Dev nD) (t : Fin cfg0.N) (h : ¬t.val % 8 = 0) :
    colAcc m c t.val t.isLt = k0_pay5 (iblk m c 0 t) (iblk m c 1 t)
      (colAcc m c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: at the start what the launch hands over; afterwards the scratch row at
    the running minimum the point before left, and the generator register. -/
def PhiS (c : Dev nD) : (n : ℕ) → n ≤ cfg0.N → sProp 𝕄
  | 0, _ => Pipeline.ΦA spec0 c
  | n + 1, hn => iprop(iprop(owns (c : Thread nD τ) scratchMem fullShare (colAcc m c n hn)) ∗ (∃ r, prngReg c r))

theorem PhiS_pos (c : Dev nD) (n : ℕ) (h : n ≤ cfg0.N) (hz : n ≠ 0) :
    PhiS m c n h = iprop(iprop(owns (c : Thread nD τ) scratchMem fullShare (colAcc m c (n - 1) (by omega))) ∗ (∃ r, prngReg c r)) := by
  cases n with
  | zero => exact absurd rfl hz
  | succ n => rfl

/-- Whatever the position, the invariant gives the scratch at SOME contents and the register. -/
theorem PhiS_forget (c : Dev nD) (n : ℕ) (h : n ≤ cfg0.N) :
    PhiS m c n h ⊢ iprop(iprop((∃ d, owns (c : Thread nD τ) scratchMem fullShare d)) ∗ (∃ r, prngReg c r)) := by
  cases n with
  | zero => rw [show PhiS m c 0 h = Pipeline.ΦA spec0 c from rfl, PhiA_eq]
  | succ n =>
    rw [show PhiS m c (n + 1) h = iprop(iprop(owns (c : Thread nD τ) scratchMem fullShare (colAcc m c n h)) ∗ (∃ r, prngReg c r)) from rfl]
    iintro ⟨HS, Hg⟩
    isplitl [HS]; · iexists _; iexact HS
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => k0_pay6 (colAcc m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay2 (iblk m c 0 t) (iblk m c 1 t) := by dsimp only [dats]
theorem after_3 (c : Dev nD) (t : Fin cfg0.N) : (dats m 0 c).after 3 t = k0_pay6 (colAcc m c t.val t.isLt) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem Phi_start (c : Dev nD) (t : Fin cfg0.N) :
    (dats m 0 c).Φ t.castSucc = PhiS m c t.val (Nat.le_of_lt t.isLt) := by
  dsimp only [dats]; simp only [Fin.coe_castSucc]

theorem Phi_end (c : Dev nD) (t : Fin cfg0.N) :
    (dats m 0 c).Φ t.succ
      = iprop(iprop(owns (c : Thread nD τ) scratchMem fullShare (colAcc m c t.val t.isLt)) ∗ (∃ r, prngReg c r)) := rfl

/-! ## The body obligation -/

set_option maxHeartbeats 4800000 in
theorem sound_body (c : Dev nD) (t : Fin cfg0.N) :
    iprop((dats m 0 c).Φ t.castSucc ∗ (dats m 0 c).owesAt () t.castSucc
      ∗ (∃ d, owns (c : Thread nD τ) (mem0 t) fullShare ((dats m 0 c).before 0 t d))
      ∗ (∃ d, owns (c : Thread nD τ) (mem1 t) fullShare ((dats m 0 c).before 1 t d))
      ∗ (∃ d, owns (c : Thread nD τ) (mem2 t) fullShare ((dats m 0 c).before 2 t d))
      ∗ (∃ d, owns (c : Thread nD τ) (mem3 t) fullShare ((dats m 0 c).before 3 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t
        ∗ (dats m 0 c).leavesExact 2 t ∗ (dats m 0 c).leavesExact 3 t)) := by
  unfold bodyAt0
  simp only [before_0, before_1]
  rw [show (dats m 0 c).owesAt () t.succ = (dats m 0 c).owesAt () t.castSucc from rfl]
  rw [Phi_end, Phi_start]
  rw [show (dats m 0 c).leavesExact 0 t = owns (c : Thread nD τ) (mem0 t) fullShare ((dats m 0 c).after 0 t) from by
    unfold Dat.leavesExact; rw [live0 t], after_0]
  rw [show (dats m 0 c).leavesExact 1 t = owns (c : Thread nD τ) (mem1 t) fullShare ((dats m 0 c).after 1 t) from by
    unfold Dat.leavesExact; rw [live1 t], after_1]
  rw [show (dats m 0 c).leavesExact 2 t = owns (c : Thread nD τ) (mem2 t) fullShare ((dats m 0 c).after 2 t) from by
    unfold Dat.leavesExact; rw [live2 t], after_2]
  by_cases hF : t.val % 8 = 0
  · -- first tile of a batch
    have hL : ¬t.val % 8 = 7 := by omega
    rw [Dat.leavesExact_idle (dats m 0 c) 3 t (idle3 t hL) (kept3 t hL), colAcc_first m c t hF]
    iintro ⟨HΦ, Ho, ⟨%d0, H0⟩, ⟨%d1, H1⟩, ⟨%d2, H2⟩, ⟨%d3, H3⟩⟩
    icases (PhiS_forget m c _ _) $$ HΦ with ⟨HS, Hg⟩
    iapply (body_first c (grid0.coords t) (mem0 t) (whole0 t) (mem1 t) (whole1 t) (mem2 t) (whole2 t) (mem3 t) (whole3 t)
      scratchMem (Memref.isWhole_whole _) ((atFirst_iff t).mpr hF) (fun h => (pastFirst_iff t).mp h hF) (fun h => hL ((atLast_iff t).mp h))
      (iblk m c 0 t) (iblk m c 1 t) ((dats m 0 c).before 3 t d3) Set.univ _)
    isplitl [H0]; · iexact H0
    isplitl [H1]; · iexact H1
    isplitl [H2]; · iexists _; iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexists _; iexact H3
  · have hz : t.val ≠ 0 := fun h => hF (by rw [h])
    rw [PhiS_pos m c _ _ hz, colAcc_later m c t hF]
    by_cases hL : t.val % 8 = 7
    · -- last tile of a batch
      rw [show (dats m 0 c).leavesExact 3 t = owns (c : Thread nD τ) (mem3 t) fullShare ((dats m 0 c).after 3 t) from by
        unfold Dat.leavesExact; rw [live3 t hL], after_3, colAcc_later m c t hF]
      iintro ⟨⟨HS, Hg⟩, Ho, ⟨%d0, H0⟩, ⟨%d1, H1⟩, ⟨%d2, H2⟩, ⟨%d3, H3⟩⟩
      iapply (body_last c (grid0.coords t) (mem0 t) (whole0 t) (mem1 t) (whole1 t) (mem2 t) (whole2 t) (mem3 t) (whole3 t)
        scratchMem (Memref.isWhole_whole _) (fun h => hF ((atFirst_iff t).mp h)) ((pastFirst_iff t).mpr hF) ((atLast_iff t).mpr hL)
        (iblk m c 0 t) (iblk m c 1 t) (colAcc m c (t.val - 1) (Nat.lt_of_le_of_lt (Nat.sub_le _ _) t.isLt)) Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · -- a middle tile
      rw [Dat.leavesExact_idle (dats m 0 c) 3 t (idle3 t hL) (kept3 t hL)]
      iintro ⟨⟨HS, Hg⟩, Ho, ⟨%d0, H0⟩, ⟨%d1, H1⟩, ⟨%d2, H2⟩, ⟨%d3, H3⟩⟩
      iapply (body_middle c (grid0.coords t) (mem0 t) (whole0 t) (mem1 t) (whole1 t) (mem2 t) (whole2 t) (mem3 t) (whole3 t)
        scratchMem (Memref.isWhole_whole _) (fun h => hF ((atFirst_iff t).mp h)) ((pastFirst_iff t).mpr hF) (fun h => hL ((atLast_iff t).mp h))
        (iblk m c 0 t) (iblk m c 1 t) ((dats m 0 c).before 3 t d3) (colAcc m c (t.val - 1) (Nat.lt_of_le_of_lt (Nat.sub_le _ _) t.isLt)) Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_forget m c _ _

/-! ## The run and the frame -/

set_option backward.isDefEq.respectTransparency.types false in
/-- Every weakly fair execution of @main terminates without a fault, each array of the pipeline ending at what the
    write-backs of the proof data leave and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Chamfer

end
-- ==== Proof.Body.lean ====
import proofs.«106484_j66271345377749_2_alg».proof.Proof.Gen.KernelIdeal.Frame
import proofs.«106484_j66271345377749_2_alg».proof.Proof.Gen.KernelIdeal.Skeleton
import proofs.«106484_j66271345377749_2_alg».proof.Proof.LibWholeStore

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.LibWholeStore

/-! # The kernel body, run once per kind of grid point

The grid is (batch b, tile i) with i innermost.  At every point the body reads a tile of 512 ground-truth
rows and all 4096 predicted points of the batch, forms the 512 x 4096 matrix of squared distances
P = (xx + yy) - 2 zz, and stores the row minima (over the predicted points) into its first output block.
The column minima (over the 512 rows of this tile) go to a scratch row that lives across the tiles of one
batch: at the first tile (i = 0) the scratch is overwritten with them, at every later tile it is replaced by
its elementwise minimum with them, and at the last tile (i = 7) the scratch is copied to the second output
block.  Three kinds of point therefore: first, middle, last.  Each theorem below runs the whole body on any
whole memrefs and says what every buffer holds afterwards, generically in the float instance. -/

variable {F : FTy → Type} [FloatOps F]

local notation "𝕄" => MT nD τ sig Unit (Elt F) ℕ (UR sig nD τ) ℕ

/-- The three branch conditions as the body computes them from the tile coordinate. -/
abbrev atFirst (i : grid0.Coords) : Prop := (Scalar.cmpi .ne (Scalar.extui (Scalar.cmpi .eq (BitVec.ofNat 32 (i 1).val) 0#32)) 0#32) = 1#1
abbrev pastFirst (i : grid0.Coords) : Prop := (Scalar.cmpi .ne (Scalar.extui (Scalar.cmpi .ne (BitVec.ofNat 32 (i 1).val) 0#32)) 0#32) = 1#1
abbrev atLast (i : grid0.Coords) : Prop := k0_cond3 i = 1#1

theorem zeros3 : (![0, 0, 0] : Fin 3 → ℕ) = fun _ => 0 := by funext a; fin_cases a <;> rfl
theorem zeros2 : (![0, 0] : Fin 2 → ℕ) = fun _ => 0 := by funext a; fin_cases a <;> rfl

set_option maxHeartbeats 1000000 in
/-- FIRST tile of a batch: rows stored, scratch overwritten with this tile's column minima, second output untouched. -/
theorem body_first (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (arg6 : Memref sig .tc .vmem S1x4096 .f32) (harg6 : arg6.IsWhole)
    (h1 : atFirst i) (h2 : ¬pastFirst i) (h3 : ¬atLast i)
    (x0 : Vec F S1x512x3 .f32) (x1 : Vec F S1x3x4096 .f32) (y5 : Vec F S1x1x4096 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare y5
        ∗ (∃ d, owns (c : Thread nD τ) arg6 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare y5
            ∗ owns (c : Thread nD τ) arg6 fullShare (k0_pay4 x0 x1)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%d4, %f4, -, H4⟩, ⟨%f5, %hf5, H5⟩, ⟨%d6, %f6, -, H6⟩, Hk⟩
  obtain rfl := harg2.eq_unread hf0; obtain rfl := harg3.eq_unread hf1
  sl_exec (disch := first | exact h1 | exact h2 | exact h3)
  sl_step
  iapply Hk
  isplitl [H0]; · iexists _; isplitr; · ipureintro; exact hf0
                  iexact H0
  isplitl [H1]; · iexists _; isplitr; · ipureintro; exact hf1
                  iexact H1
  isplitl [H4]
  · iexists _; isplitr; swap; · iexact H4
    ipureintro
    rw [read_after_whole_store _ _ zeros3, load_whole arg2 harg2 zeros3, load_whole arg3 harg3 zeros3]
  isplitl [H5]; · iexists _; isplitr; · ipureintro; exact hf5
                  iexact H5
  iexists _; isplitr; swap; · iexact H6
  ipureintro
  rw [read_after_whole_store _ _ zeros2, load_whole arg2 harg2 zeros3, load_whole arg3 harg3 zeros3]

set_option maxHeartbeats 1000000 in
/-- A MIDDLE tile: rows stored, scratch replaced by its minimum with this tile's column minima, second output untouched. -/
theorem body_middle (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (arg6 : Memref sig .tc .vmem S1x4096 .f32) (harg6 : arg6.IsWhole)
    (h1 : ¬atFirst i) (h2 : pastFirst i) (h3 : ¬atLast i)
    (x0 : Vec F S1x512x3 .f32) (x1 : Vec F S1x3x4096 .f32) (y5 : Vec F S1x1x4096 .f32) (s : Vec F S1x4096 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare y5
        ∗ owns (c : Thread nD τ) arg6 fullShare s
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare y5
            ∗ owns (c : Thread nD τ) arg6 fullShare (k0_pay5 x0 x1 s)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1; obtain rfl := harg6.eq_unread hf6
  sl_exec (disch := first | exact h1 | exact h2 | exact h3)
  sl_step
  iapply Hk
  isplitl [H0]; · iexists _; isplitr; · ipureintro; exact hf0
                  iexact H0
  isplitl [H1]; · iexists _; isplitr; · ipureintro; exact hf1
                  iexact H1
  isplitl [H4]
  · iexists _; isplitr; swap; · iexact H4
    ipureintro
    rw [read_after_whole_store _ _ zeros3, load_whole arg2 harg2 zeros3, load_whole arg3 harg3 zeros3]
  isplitl [H5]; · iexists _; isplitr; · ipureintro; exact hf5
                  iexact H5
  iexists _; isplitr; swap; · iexact H6
  ipureintro
  rw [read_after_whole_store _ _ zeros2, load_whole arg2 harg2 zeros3, load_whole arg3 harg3 zeros3, load_whole arg6 harg6 zeros2]

set_option maxHeartbeats 1000000 in
/-- The LAST tile: as a middle tile, and then the scratch is copied into the second output block. -/
theorem body_last (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (arg6 : Memref sig .tc .vmem S1x4096 .f32) (harg6 : arg6.IsWhole)
    (h1 : ¬atFirst i) (h2 : pastFirst i) (h3 : atLast i)
    (x0 : Vec F S1x512x3 .f32) (x1 : Vec F S1x3x4096 .f32) (s : Vec F S1x4096 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare s
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay6 (k0_pay5 x0 x1 s))
            ∗ owns (c : Thread nD τ) arg6 fullShare (k0_pay5 x0 x1 s)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%d4, %f4, -, H4⟩, ⟨%d5, %f5, -, H5⟩, ⟨%f6, %hf6, H6⟩, Hk⟩
  obtain rfl := harg2.eq_unread hf0; obtain rfl := harg3.eq_unread hf1; obtain rfl := harg6.eq_unread hf6
  sl_exec (disch := first | exact h1 | exact h2 | exact h3)
  sl_step
  sl_unfold_words
  iapply Hk
  isplitl [H0]; · iexists _; isplitr; · ipureintro; exact hf0
                  iexact H0
  isplitl [H1]; · iexists _; isplitr; · ipureintro; exact hf1
                  iexact H1
  isplitl [H4]
  · iexists _; isplitr; swap; · iexact H4
    ipureintro
    rw [read_after_whole_store _ _ zeros3, load_whole arg2 harg2 zeros3, load_whole arg3 harg3 zeros3]
  isplitl [H5]
  · iexists _; isplitr; swap; · iexact H5
    ipureintro
    rw [read_after_whole_store _ _ zeros3, View.readCov_unit_zero _ zeros2, load_whole arg2 harg2 zeros3, load_whole arg3 harg3 zeros3,
      load_whole arg6 harg6 zeros2]
  iexists _; isplitr; swap; · iexact H6
  ipureintro
  rw [read_after_whole_store _ _ zeros2, load_whole arg2 harg2 zeros3, load_whole arg3 harg3 zeros3, load_whole arg6 harg6 zeros2]

end Cert.KernelIdeal.Chamfer

end
-- ==== Proof.Data.lean ====
import proofs.«106484_j66271345377749_2_alg».proof.Proof.Body

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

/-! # The region's run: what every buffer holds after every grid point

The pipeline visits the 64 points in order, point t = 8 b + i.  The two inputs are found at their blocks.
The first output's staging buffer is stored whole at every point and written back at every point.  The scratch
row carries the running column minimum: after point t it holds `colAcc t`, defined by recursion on t —
this tile's column minima at the first tile of a batch, and otherwise the minimum of what the point before left
with this tile's.  The second output's staging buffer is stored only at the last tile of a batch (with the scratch)
and is written back only there; at the other points the body does not touch it. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid, and where the second output is idle -/

theorem atFirst_iff : ∀ t : Fin cfg0.N, atFirst (grid0.coords t) ↔ t.val % 8 = 0 :=
  (by decide +kernel : ∀ t : Fin grid0.N, atFirst (grid0.coords t) ↔ t.val % 8 = 0)
theorem pastFirst_iff : ∀ t : Fin cfg0.N, pastFirst (grid0.coords t) ↔ ¬t.val % 8 = 0 :=
  (by decide +kernel : ∀ t : Fin grid0.N, pastFirst (grid0.coords t) ↔ ¬t.val % 8 = 0)
theorem atLast_iff : ∀ t : Fin cfg0.N, atLast (grid0.coords t) ↔ t.val % 8 = 7 :=
  (by decide +kernel : ∀ t : Fin grid0.N, atLast (grid0.coords t) ↔ t.val % 8 = 7)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬t.val % 8 = 7 → cfg0.idle 3 (grid0.coords t) = true := by decide +kernel
theorem kept3 : ∀ t : Fin cfg0.N, ¬t.val % 8 = 7 → (cfg0.win 3).flush t = false := by decide +kernel
theorem live3 : ∀ t : Fin cfg0.N, t.val % 8 = 7 → cfg0.idle 3 (grid0.coords t) = false := by decide +kernel

/-! ## The memrefs the body is called with -/

abbrev mem0 (t : Fin cfg0.N) : Memref sig .tc .vmem S1x512x3 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S1x3x4096 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1x512x1 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1x1x4096 .f32 := win0_3.stage (cfg0.slots t 3)
abbrev whole3 (t : Fin cfg0.N) : (mem3 t).IsWhole := hstage0_3 ((cfg0.slots t 3).cast nbuf0_3)
/-- The scratch row: a whole scoped buffer of the kernel's own. -/
abbrev scratchMem : Memref sig .tc .vmem S1x4096 .f32 := Memref.whole cc0_scratch0

/-- What the launch hands the region beside the windows: the scratch at some contents and the generator register. -/
theorem PhiA_eq (c : Dev nD) :
    (Pipeline.ΦA spec0 c : sProp 𝕄)
      = iprop(iprop((∃ d, owns (c : Thread nD τ) scratchMem fullShare d)) ∗ (∃ r, prngReg c r)) := by
  unfold Pipeline.ΦA; rw [scopedRest0_eq]; simp only [scratchMem, owns_whole]; try rfl

/-! ## The running column minimum -/

/-- What the scratch row holds after point `n`. -/
def colAcc (c : Dev nD) : (n : ℕ) → n < cfg0.N → Vec F S1x4096 .f32
  | 0, hn => k0_pay4 (iblk m c 0 ⟨0, hn⟩) (iblk m c 1 ⟨0, hn⟩)
  | n + 1, hn =>
    if (n + 1) % 8 = 0 then k0_pay4 (iblk m c 0 ⟨n + 1, hn⟩) (iblk m c 1 ⟨n + 1, hn⟩)
    else k0_pay5 (iblk m c 0 ⟨n + 1, hn⟩) (iblk m c 1 ⟨n + 1, hn⟩) (colAcc c n (Nat.lt_of_succ_lt hn))

/-- At the first tile of a batch the scratch is this tile's column minima. -/
theorem colAcc_first (c : Dev nD) (t : Fin cfg0.N) (h : t.val % 8 = 0) :
    colAcc m c t.val t.isLt = k0_pay4 (iblk m c 0 t) (iblk m c 1 t) := by
  obtain ⟨n, hn⟩ := t
  cases n with
  | zero => rfl
  | succ n => exact if_pos h

/-- At a later tile it is the minimum of what the point before left with this tile's column minima. -/
theorem colAcc_later (c : Dev nD) (t : Fin cfg0.N) (h : ¬t.val % 8 = 0) :
    colAcc m c t.val t.isLt = k0_pay5 (iblk m c 0 t) (iblk m c 1 t)
      (colAcc m c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: at the start what the launch hands over; afterwards the scratch row at
    the running minimum the point before left, and the generator register. -/
def PhiS (c : Dev nD) : (n : ℕ) → n ≤ cfg0.N → sProp 𝕄
  | 0, _ => Pipeline.ΦA spec0 c
  | n + 1, hn => iprop(iprop(owns (c : Thread nD τ) scratchMem fullShare (colAcc m c n hn)) ∗ (∃ r, prngReg c r))

theorem PhiS_pos (c : Dev nD) (n : ℕ) (h : n ≤ cfg0.N) (hz : n ≠ 0) :
    PhiS m c n h = iprop(iprop(owns (c : Thread nD τ) scratchMem fullShare (colAcc m c (n - 1) (by omega))) ∗ (∃ r, prngReg c r)) := by
  cases n with
  | zero => exact absurd rfl hz
  | succ n => rfl

/-- Whatever the position, the invariant gives the scratch at SOME contents and the register. -/
theorem PhiS_forget (c : Dev nD) (n : ℕ) (h : n ≤ cfg0.N) :
    PhiS m c n h ⊢ iprop(iprop((∃ d, owns (c : Thread nD τ) scratchMem fullShare d)) ∗ (∃ r, prngReg c r)) := by
  cases n with
  | zero => rw [show PhiS m c 0 h = Pipeline.ΦA spec0 c from rfl, PhiA_eq]
  | succ n =>
    rw [show PhiS m c (n + 1) h = iprop(iprop(owns (c : Thread nD τ) scratchMem fullShare (colAcc m c n h)) ∗ (∃ r, prngReg c r)) from rfl]
    iintro ⟨HS, Hg⟩
    isplitl [HS]; · iexists _; iexact HS
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => k0_pay6 (colAcc m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay2 (iblk m c 0 t) (iblk m c 1 t) := by dsimp only [dats]
theorem after_3 (c : Dev nD) (t : Fin cfg0.N) : (dats m 0 c).after 3 t = k0_pay6 (colAcc m c t.val t.isLt) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem Phi_start (c : Dev nD) (t : Fin cfg0.N) :
    (dats m 0 c).Φ t.castSucc = PhiS m c t.val (Nat.le_of_lt t.isLt) := by
  dsimp only [dats]; simp only [Fin.coe_castSucc]

theorem Phi_end (c : Dev nD) (t : Fin cfg0.N) :
    (dats m 0 c).Φ t.succ
      = iprop(iprop(owns (c : Thread nD τ) scratchMem fullShare (colAcc m c t.val t.isLt)) ∗ (∃ r, prngReg c r)) := rfl

/-! ## The body obligation -/

set_option maxHeartbeats 4800000 in
theorem sound_body (c : Dev nD) (t : Fin cfg0.N) :
    iprop((dats m 0 c).Φ t.castSucc ∗ (dats m 0 c).owesAt () t.castSucc
      ∗ (∃ d, owns (c : Thread nD τ) (mem0 t) fullShare ((dats m 0 c).before 0 t d))
      ∗ (∃ d, owns (c : Thread nD τ) (mem1 t) fullShare ((dats m 0 c).before 1 t d))
      ∗ (∃ d, owns (c : Thread nD τ) (mem2 t) fullShare ((dats m 0 c).before 2 t d))
      ∗ (∃ d, owns (c : Thread nD τ) (mem3 t) fullShare ((dats m 0 c).before 3 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t
        ∗ (dats m 0 c).leavesExact 2 t ∗ (dats m 0 c).leavesExact 3 t)) := by
  unfold bodyAt0
  simp only [before_0, before_1]
  rw [show (dats m 0 c).owesAt () t.succ = (dats m 0 c).owesAt () t.castSucc from rfl]
  rw [Phi_end, Phi_start]
  rw [show (dats m 0 c).leavesExact 0 t = owns (c : Thread nD τ) (mem0 t) fullShare ((dats m 0 c).after 0 t) from by
    unfold Dat.leavesExact; rw [live0 t], after_0]
  rw [show (dats m 0 c).leavesExact 1 t = owns (c : Thread nD τ) (mem1 t) fullShare ((dats m 0 c).after 1 t) from by
    unfold Dat.leavesExact; rw [live1 t], after_1]
  rw [show (dats m 0 c).leavesExact 2 t = owns (c : Thread nD τ) (mem2 t) fullShare ((dats m 0 c).after 2 t) from by
    unfold Dat.leavesExact; rw [live2 t], after_2]
  by_cases hF : t.val % 8 = 0
  · -- first tile of a batch
    have hL : ¬t.val % 8 = 7 := by omega
    rw [Dat.leavesExact_idle (dats m 0 c) 3 t (idle3 t hL) (kept3 t hL), colAcc_first m c t hF]
    iintro ⟨HΦ, Ho, ⟨%d0, H0⟩, ⟨%d1, H1⟩, ⟨%d2, H2⟩, ⟨%d3, H3⟩⟩
    icases (PhiS_forget m c _ _) $$ HΦ with ⟨HS, Hg⟩
    iapply (body_first c (grid0.coords t) (mem0 t) (whole0 t) (mem1 t) (whole1 t) (mem2 t) (whole2 t) (mem3 t) (whole3 t)
      scratchMem (Memref.isWhole_whole _) ((atFirst_iff t).mpr hF) (fun h => (pastFirst_iff t).mp h hF) (fun h => hL ((atLast_iff t).mp h))
      (iblk m c 0 t) (iblk m c 1 t) ((dats m 0 c).before 3 t d3) Set.univ _)
    isplitl [H0]; · iexact H0
    isplitl [H1]; · iexact H1
    isplitl [H2]; · iexists _; iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexists _; iexact H3
  · have hz : t.val ≠ 0 := fun h => hF (by rw [h])
    rw [PhiS_pos m c _ _ hz, colAcc_later m c t hF]
    by_cases hL : t.val % 8 = 7
    · -- last tile of a batch
      rw [show (dats m 0 c).leavesExact 3 t = owns (c : Thread nD τ) (mem3 t) fullShare ((dats m 0 c).after 3 t) from by
        unfold Dat.leavesExact; rw [live3 t hL], after_3, colAcc_later m c t hF]
      iintro ⟨⟨HS, Hg⟩, Ho, ⟨%d0, H0⟩, ⟨%d1, H1⟩, ⟨%d2, H2⟩, ⟨%d3, H3⟩⟩
      iapply (body_last c (grid0.coords t) (mem0 t) (whole0 t) (mem1 t) (whole1 t) (mem2 t) (whole2 t) (mem3 t) (whole3 t)
        scratchMem (Memref.isWhole_whole _) (fun h => hF ((atFirst_iff t).mp h)) ((pastFirst_iff t).mpr hF) ((atLast_iff t).mpr hL)
        (iblk m c 0 t) (iblk m c 1 t) (colAcc m c (t.val - 1) (Nat.lt_of_le_of_lt (Nat.sub_le _ _) t.isLt)) Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · -- a middle tile
      rw [Dat.leavesExact_idle (dats m 0 c) 3 t (idle3 t hL) (kept3 t hL)]
      iintro ⟨⟨HS, Hg⟩, Ho, ⟨%d0, H0⟩, ⟨%d1, H1⟩, ⟨%d2, H2⟩, ⟨%d3, H3⟩⟩
      iapply (body_middle c (grid0.coords t) (mem0 t) (whole0 t) (mem1 t) (whole1 t) (mem2 t) (whole2 t) (mem3 t) (whole3 t)
        scratchMem (Memref.isWhole_whole _) (fun h => hF ((atFirst_iff t).mp h)) ((pastFirst_iff t).mpr hF) (fun h => hL ((atLast_iff t).mp h))
        (iblk m c 0 t) (iblk m c 1 t) ((dats m 0 c).before 3 t d3) (colAcc m c (t.val - 1) (Nat.lt_of_le_of_lt (Nat.sub_le _ _) t.isLt)) Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_forget m c _ _

/-! ## The run and the frame -/

set_option backward.isDefEq.respectTransparency.types false in
/-- Every weakly fair execution of @main terminates without a fault, each array of the pipeline ending at what the
    write-backs of the proof data leave and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Chamfer

end
-- ==== Proof.LibMinReduce.lean ====
import Idealize.ShloMosaic.PureOps.Ideal.Laws
import Idealize.ShloMosaic.PureOps.Reduce

/-
  Minimum reductions read on the extended reals (for any format, shapes and axis):

  * multiReduction_minimumf_single — a float `vector.multi_reduction <minimumf>` over ONE axis, at the ideal instance, is at
    each reduced index the running minimum, from the accumulator's value, over that axis's coordinates (the reduced index
    with the coordinate put back);
  * le_fold_min_univ — a bound lies below such a running minimum over a whole index type iff it lies below the start
    value and below every term: the handle for regrouping minima (tile by tile, or carried from step to step), since two
    extended reals with the same lower bounds are equal (`eq_of_forall_le_iff`).
-/

namespace Cert.LibMinReduce

open Idealize.ShloMosaic

/-- A float `vector.multi_reduction <minimumf>` over one axis, read at the ideal instance: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- Below a running minimum over a whole index type: below its start and below every term. -/
theorem le_fold_min_univ {ι : Type} [Fintype ι] (z s : EReal) (f : ι → EReal) :
    z ≤ (Finset.univ : Finset ι).fold min s f ↔ z ≤ s ∧ ∀ k, z ≤ f k := by
  rw [Finset.le_fold_min]
  exact and_congr Iff.rfl ⟨fun h k => h k (Finset.mem_univ k), fun h k _ => h k⟩

end Cert.LibMinReduce
-- ==== Proof.Spec.lean ====
import Idealize.ShloMosaic.PureOps.Ideal
import Idealize.ShloMosaic.PureOps.Ideal.Laws
import Idealize.ShloMosaic.Lib.ValueIdx
import proofs.«106484_j66271345377749_2_alg».proof.Proof.LibMinReduce

/-!
# The Chamfer loss of two batches of point clouds, on the extended reals

For ground-truth points g[b, n, :] and predicted points p[b, j, :] in 3-space (8 batches of 4096 points each),
the squared distance is taken in the expanded form  (|g|^2 + |p|^2) - 2 <g, p>.  Each ground-truth point looks for its
nearest predicted point and each predicted point for its nearest ground-truth point; the two mean distances are
compared and the larger one is the loss.  The four float literals both programs use are kept as their words.
-/

noncomputable section

namespace Cert.Chamfer

open Idealize.ShloMosaic Idealize.ShloMosaic.ValueIdx

/-- A batch of point clouds. -/
abbrev Cloud : Type := (⟨3, ![8, 4096, 3]⟩ : Shape).Idx → EReal

abbrev two : EReal := Ideal.ofBits .f32 0x40000000#32
abbrev top : EReal := Ideal.ofBits .f32 0x7F800000#32
abbrev zero : EReal := Ideal.ofBits .f32 0x00000000#32
abbrev count : EReal := Ideal.ofBits .f32 0x47000000#32

/-- The squared distance between ground-truth point `n` and predicted point `j` of batch `b`. -/
def sqDist (g p : Cloud) (b : Fin 8) (n j : Fin 4096) : EReal :=
  ((∑ d : Fin 3, g (ix3 b n d) * g (ix3 b n d)) + (∑ d : Fin 3, p (ix3 b j d) * p (ix3 b j d)))
    - two * ∑ d : Fin 3, g (ix3 b n d) * p (ix3 b j d)

/-- The distance from ground-truth point `n` to its nearest predicted point. -/
def nearestPred (g p : Cloud) (b : Fin 8) (n : Fin 4096) : EReal :=
  (Finset.univ : Finset (Fin 4096)).fold min top fun j => sqDist g p b n j

/-- The distance from predicted point `j` to its nearest ground-truth point. -/
def nearestGt (g p : Cloud) (b : Fin 8) (j : Fin 4096) : EReal :=
  (Finset.univ : Finset (Fin 4096)).fold min top fun n => sqDist g p b n j

/-- The loss: the larger of the two mean nearest distances. -/
def loss (g p : Cloud) : EReal :=
  max (Ideal.div (zero + ∑ q : (⟨2, ![8, 4096]⟩ : Shape).Idx, nearestGt g p (q 0) (q 1)) count)
    (Ideal.div (zero + ∑ q : (⟨2, ![8, 4096]⟩ : Shape).Idx, nearestPred g p (q 0) (q 1)) count)

/-- The 4096 rows are the 8 tiles of 512 rows: a bound holds on every row below the end of tile `i` iff it holds
    below the end of the tile before and on the 512 rows of tile `i`. -/
theorem rows_through_tile (P : Fin 4096 → Prop) (i : ℕ) (hi : i < 8) :
    (∀ n : Fin 4096, n.val < 512 * (i + 1) → P n)
      ↔ (∀ n : Fin 4096, n.val < 512 * i → P n) ∧ ∀ a : Fin 512, P ⟨512 * i + a.val, by have := a.isLt; omega⟩ := by
  constructor
  · intro h
    exact ⟨fun n hn => h n (by omega), fun a => h _ (by have := a.isLt; show 512 * i + a.val < 512 * (i + 1); omega)⟩
  · rintro ⟨h₁, h₂⟩ n hn
    by_cases hlt : n.val < 512 * i
    · exact h₁ n hlt
    · have e : n = ⟨512 * i + (n.val - 512 * i), by have := n.isLt; omega⟩ := Fin.ext (by show n.val = 512 * i + (n.val - 512 * i); omega)
      rw [e]
      exact h₂ ⟨n.val - 512 * i, by omega⟩

/-- The same for a lower bound of a running minimum: below the start and every row up to the tile before, and below
    the start and every row of tile `i`, is below the start and every row up to tile `i`. -/
theorem below_through_tile (D : Fin 4096 → EReal) (z s : EReal) (i : ℕ) (hi : i < 8) :
    ((z ≤ s ∧ ∀ n : Fin 4096, n.val < 512 * i → z ≤ D n)
        ∧ (z ≤ s ∧ ∀ a : Fin 512, z ≤ D ⟨512 * i + a.val, by have := a.isLt; omega⟩))
      ↔ (z ≤ s ∧ ∀ n : Fin 4096, n.val < 512 * (i + 1) → z ≤ D n) := by
  rw [rows_through_tile (fun n => z ≤ D n) i hi]
  exact ⟨fun ⟨⟨h, h₁⟩, _, h₂⟩ => ⟨h, h₁, h₂⟩, fun ⟨h, h₁, h₂⟩ => ⟨⟨h, h₁⟩, h, h₂⟩⟩

/-- At the first tile there is no tile before. -/
theorem below_first_tile (D : Fin 4096 → EReal) (z s : EReal) (i : ℕ) (hi : i = 0) :
    (z ≤ s ∧ ∀ a : Fin 512, z ≤ D ⟨512 * i + a.val, by have := a.isLt; omega⟩)
      ↔ (z ≤ s ∧ ∀ n : Fin 4096, n.val < 512 * (i + 1) → z ≤ D n) := by
  rw [rows_through_tile (fun n => z ≤ D n) i (by omega)]
  exact ⟨fun ⟨h, h₂⟩ => ⟨h, fun n hn => absurd hn (by rw [hi]; omega), h₂⟩, fun ⟨h, _, h₂⟩ => ⟨h, h₂⟩⟩

end Cert.Chamfer

end
-- ==== Proof.LibColumnLayouts.lean ====
import Idealize.ShloMosaic.Lib.Pipeline.Value
import Idealize.ShloMosaic.Lib.ValueIdx

/-
  Layout changes around a row-wise reduction, read at an index (for any element type and any extents):

  * slab_as_rows   — a [1, n, 1, w] slab read as an [n, w] matrix: entry (r, d) is the slab's (0, r, 0, d);
  * rows_as_slab   — an [n, w] matrix read as a [1, n, 1, w] slab;
  * vec_as_column  — a length-n vector read as an [n, 1] column (what keeping the reduced axis does to a row-wise
                     reduction's result);
  * column_spread  — an [n, 1] column spread over b columns: entry (r, t) is the column's (r, 0).
-/

namespace Cert.LibColumnLayouts

open Idealize.ShloMosaic Idealize.ShloMosaic.ValueIdx

variable {α : Type}

/-- A [1, n, 1, w] slab read as [n, w]: entry (r, d) is the slab's (0, r, 0, d). -/
theorem slab_as_rows {n w : ℕ} (x : (⟨4, ![1, n, 1, w]⟩ : Shape).Idx → α)
    (h : (⟨4, ![1, n, 1, w]⟩ : Shape).ShapeCasts ⟨2, ![n, w]⟩) (r : Fin n) (d : Fin w) :
    shapeCast ⟨2, ![n, w]⟩ x h (ix2 r d) = x (ix4 (0 : Fin 1) r (0 : Fin 1) d) :=
  shapeCast_apply x h _ _ (by
    rw [Shape.rowMajor_val_four, Shape.rowMajor_val_two]
    show ((0 * n + r.val) * 1 + 0) * w + d.val = r.val * w + d.val
    rw [Nat.zero_mul, Nat.zero_add, Nat.mul_one, Nat.add_zero])

/-- [n, w] rows read as a [1, n, 1, w] slab: entry (u, r, v, d) is the matrix's (r, d). -/
theorem rows_as_slab {n w : ℕ} (x : (⟨2, ![n, w]⟩ : Shape).Idx → α)
    (h : (⟨2, ![n, w]⟩ : Shape).ShapeCasts ⟨4, ![1, n, 1, w]⟩) (u : Fin 1) (r : Fin n) (v : Fin 1) (d : Fin w) :
    shapeCast ⟨4, ![1, n, 1, w]⟩ x h (ix4 u r v d) = x (ix2 r d) :=
  shapeCast_apply x h _ _ (by
    rw [Shape.rowMajor_val_four, Shape.rowMajor_val_two]
    show r.val * w + d.val = ((u.val * n + r.val) * 1 + v.val) * w + d.val
    have hu : u.val = 0 := by omega
    have hv : v.val = 0 := by omega
    rw [hu, hv, Nat.zero_mul, Nat.zero_add, Nat.mul_one, Nat.add_zero])

/-- A length-n vector read as an [n, 1] column: entry (r, u) is the vector's r. -/
theorem vec_as_column {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    rw [Shape.rowMajor_val_two, Shape.rowMajor_val_one]
    show r.val = r.val * 1 + u.val
    have hu : u.val = 0 := by omega
    rw [hu, Nat.mul_one, Nat.add_zero])

/-- An [n, 1] column spread over b columns (n ≠ 1): entry (r, t) is the column's (r, 0). -/
theorem column_spread {n b : ℕ} (hb : b ≠ 1) (x : (⟨2, ![n, 1]⟩ : Shape).Idx → α) (h : (⟨2, ![n, 1]⟩ : Shape).Broadcasts ⟨2, ![n, b]⟩)
    (hn : n ≠ 1) (r : Fin n) (t : Fin b) : broadcastTo ⟨2, ![n, b]⟩ x h (ix2 r t) = x (ix2 r (0 : Fin 1)) := by
  refine broadcastTo_apply x h (ix2 r t) (ix2 r (0 : Fin 1)) fun a => ?_
  match a with
  | ⟨0, _⟩ =>
    show r.val = if n = 1 then 0 else r.val
    rw [if_neg hn]
  | ⟨1, _⟩ => rfl

end Cert.LibColumnLayouts
-- ==== Proof.Payload.lean ====
import proofs.«106484_j66271345377749_2_alg».proof.Proof.Gen.KernelIdeal.Skeleton
import proofs.«106484_j66271345377749_2_alg».proof.Proof.Spec
import proofs.«106484_j66271345377749_2_alg».proof.Proof.LibColumnLayouts
import Idealize.ShloMosaic.Lib.ValueLayout
import Idealize.ShloMosaic.Lib.Pipeline.Value
import Idealize.ShloMosaic.PureOps.Ideal.Laws

/-!
# What the body computes, entry by entry, on the extended reals

For a tile of 512 ground-truth rows `x0` ([1, 512, 3]) and the batch's predicted points `x1` ([1, 3, 4096], one row per
coordinate), the body forms  P(a, j) = (|x0 a|^2 + |x1 j|^2) - 2 <x0 a, x1 j>,  the minimum of each row of P, and the
minimum of each column of P; the running column minimum is refreshed by an elementwise minimum.
-/

set_option maxRecDepth 16384

noncomputable section

namespace Cert.KernelIdeal.Chamfer

open Idealize.ShloMosaic Idealize.ShloMosaic.ValueIdx Cert.KernelIdeal Cert.KernelIdeal.Gen Cert.Chamfer Cert.LibMinReduce

/-- The squared distance between row `a` of the tile and predicted point `j`. -/
def tileDist (x0 : FVec Ideal S1x512x3 .f32) (x1 : FVec Ideal S1x3x4096 .f32) (a : Fin 512) (j : Fin 4096) : EReal :=
  ((∑ d : Fin 3, x0 (ix3 (0 : Fin 1) a d) * x0 (ix3 (0 : Fin 1) a d)) + (∑ d : Fin 3, x1 (ix3 (0 : Fin 1) d j) * x1 (ix3 (0 : Fin 1) d j)))
    - two * ∑ d : Fin 3, x0 (ix3 (0 : Fin 1) a d) * x1 (ix3 (0 : Fin 1) d j)

/-- A row-wise sum kept as a column and spread over the columns reads the row's sum. -/
theorem rowSum_spread (v : FVec Ideal S512x3 .f32) (a : Fin 512) (j : Fin 4096) :
    broadcastTo S512x4096 (shapeCast S512x1 (multiReduction .add [1] S512 v 0x00000000#32 reduces_S512x3_S512 (.inl rfl) rfl)
      shapeCasts_S512_S512x1) broadcasts_S512x1_S512x4096 (ix2 a j) = ∑ d : Fin 3, v (ix2 a d) := by
  refine (Cert.LibColumnLayouts.column_spread (by decide) _ _ (by decide) a j).trans ?_
  refine (Cert.LibColumnLayouts.vec_as_column _ _ a 0).trans ?_
  refine (Ideal.multiReduction_add_single v 0x00000000#32 reduces_S512x3_S512 (.inl rfl) rfl (ix1 a)).trans ?_
  refine Finset.sum_congr rfl fun d _ => congrArg v ?_
  funext ax; apply Fin.ext
  match ax with
  | ⟨0, _⟩ => rfl
  | ⟨1, _⟩ => rfl

/-- A column-wise sum kept as a row and spread over the rows reads the column's sum. -/
theorem colSum_spread (v : FVec Ideal S3x4096 .f32) (a : Fin 512) (j : Fin 4096) :
    broadcastTo S512x4096 (shapeCast S1x4096 (multiReduction .add [0] S4096 v 0x00000000#32 reduces_S3x4096_S4096 (.inl rfl) rfl)
      shapeCasts_S4096_S1x4096) broadcasts_S1x4096_S512x4096 (ix2 a j) = ∑ d : Fin 3, v (ix2 d j) := by
  refine (broadcastTo_1b_ab_apply _ _ a j).trans ?_
  refine (shapeCast_a_1a_apply _ _ 0 j).trans ?_
  refine (Ideal.multiReduction_add_single v 0x00000000#32 reduces_S3x4096_S4096 (.inl rfl) rfl (ix1 j)).trans ?_
  refine Finset.sum_congr rfl fun d _ => congrArg v ?_
  funext ax; apply Fin.ext
  match ax with
  | ⟨0, _⟩ => rfl
  | ⟨1, _⟩ => rfl

theorem lhs_row (i : S512x4096.Idx) (q : dot_S512x3_S3x4096_S512x4096_1_0_0_1_n_n.contr.Idx) : (dot_S512x3_S3x4096_S512x4096_1_0_0_1_n_n.lhsIdx i q 0).val = (i 0).val := by
  unfold DotDims.lhsIdx
  rw [dif_neg (show ¬(0 : Fin S512x3.rank) ∈ dot_S512x3_S3x4096_S512x4096_1_0_0_1_n_n.lhsBatch by decide), dif_pos (show (0 : Fin S512x3.rank) ∈ dot_S512x3_S3x4096_S512x4096_1_0_0_1_n_n.lhsNonContracting by decide)]
  rfl
theorem rhs_col (i : S512x4096.Idx) (q : dot_S512x3_S3x4096_S512x4096_1_0_0_1_n_n.contr.Idx) : (dot_S512x3_S3x4096_S512x4096_1_0_0_1_n_n.rhsIdx i q 1).val = (i 1).val := by
  unfold DotDims.rhsIdx
  rw [dif_neg (show ¬(1 : Fin S3x4096.rank) ∈ dot_S512x3_S3x4096_S512x4096_1_0_0_1_n_n.rhsBatch by decide), dif_pos (show (1 : Fin S3x4096.rank) ∈ dot_S512x3_S3x4096_S512x4096_1_0_0_1_n_n.rhsNonContracting by decide)]
  rfl

/-- The matrix product into a zero accumulator, at (a, j): the inner product of row `a` and column `j`. -/
theorem cross_apply (l : FVec Ideal S512x3 .f32) (r : FVec Ideal S3x4096 .f32) (a : Fin 512) (j : Fin 4096) :
    matmul dot_S512x3_S3x4096_S512x4096_1_0_0_1_n_n (some .fp32) l r (constant S512x4096 .f32 0x00000000#32) (ix2 a j) = ∑ d : Fin 3, l (ix2 a d) * r (ix2 d j) := by
  simp only [matmul]
  rw [Ideal.matmul_constant_zero_apply, ← Equiv.sum_comp (ValueIdx.contrEquiv1 dot_S512x3_S3x4096_S512x4096_1_0_0_1_n_n 3 rfl rfl).symm]
  refine Finset.sum_congr rfl fun k _ => ?_
  have hk := ValueIdx.contrEquiv1_symm_val dot_S512x3_S3x4096_S512x4096_1_0_0_1_n_n 3 rfl rfl k
  have el : dot_S512x3_S3x4096_S512x4096_1_0_0_1_n_n.lhsIdx (ix2 a j) ((ValueIdx.contrEquiv1 dot_S512x3_S3x4096_S512x4096_1_0_0_1_n_n 3 rfl rfl).symm k) = ix2 a k := funext fun ax => Fin.ext (by
    match ax with
    | ⟨0, _⟩ => exact lhs_row _ _
    | ⟨1, _⟩ => exact ((dot_S512x3_S3x4096_S512x4096_1_0_0_1_n_n.lhsIdx_val_of_single rfl _ _).trans hk))
  have er : dot_S512x3_S3x4096_S512x4096_1_0_0_1_n_n.rhsIdx (ix2 a j) ((ValueIdx.contrEquiv1 dot_S512x3_S3x4096_S512x4096_1_0_0_1_n_n 3 rfl rfl).symm k) = ix2 k j := funext fun ax => Fin.ext (by
    match ax with
    | ⟨0, _⟩ => exact ((dot_S512x3_S3x4096_S512x4096_1_0_0_1_n_n.rhsIdx_val_of_single rfl _ _).trans hk)
    | ⟨1, _⟩ => exact rhs_col _ _)
  rw [el, er]

/-- The distance matrix of the tile, entry by entry. -/
theorem pay1_apply (x0 : FVec Ideal S1x512x3 .f32) (x1 : FVec Ideal S1x3x4096 .f32) (a : Fin 512) (j : Fin 4096) :
    k0_pay1 (F := Ideal) x0 x1 (ix2 a j) = tileDist x0 x1 a j := by
  unfold k0_pay1 tileDist
  dsimp only
  rw [subf_apply, addf_apply, mulf_apply, broadcast_apply]
  refine congrArg₂ (· - ·) (congrArg₂ (· + ·) ?_ ?_) (congrArg₂ (· * ·) rfl ?_)
  · refine (rowSum_spread _ a j).trans (Finset.sum_congr rfl fun d _ => ?_)
    rw [mulf_apply, shapeCast_1ab_ab_apply]
  · refine (colSum_spread _ a j).trans (Finset.sum_congr rfl fun d _ => ?_)
    rw [mulf_apply, shapeCast_1ab_ab_apply]
  · refine (cross_apply _ _ a j).trans (Finset.sum_congr rfl fun d _ => ?_)
    rw [shapeCast_1ab_ab_apply, shapeCast_1ab_ab_apply]

/-- A row-wise minimum over a matrix, from the start value `top`. -/
theorem rowMin_apply (v : FVec Ideal S512x4096 .f32) (a : Fin 512) :
    multiReduction .minimumf [1] S512 v 0x7F800000#32 reduces_S512x4096_S512 (.inl rfl) rfl (ix1 a)
      = (Finset.univ : Finset (Fin 4096)).fold min top fun j => v (ix2 a j) := by
  refine (multiReduction_minimumf_single v 0x7F800000#32 reduces_S512x4096_S512 (.inl rfl) rfl (ix1 a)).trans ?_
  refine congrArg (Finset.fold min top · Finset.univ) (funext fun j => congrArg v ?_)
  funext ax; apply Fin.ext
  match ax with
  | ⟨0, _⟩ => rfl
  | ⟨1, _⟩ => rfl

/-- A column-wise minimum over a matrix, from the start value `top`. -/
theorem colMin_apply (v : FVec Ideal S512x4096 .f32) (j : Fin 4096) :
    multiReduction .minimumf [0] S4096 v 0x7F800000#32 reduces_S512x4096_S4096 (.inl rfl) rfl (ix1 j)
      = (Finset.univ : Finset (Fin 512)).fold min top fun a => v (ix2 a j) := by
  refine (multiReduction_minimumf_single v 0x7F800000#32 reduces_S512x4096_S4096 (.inl rfl) rfl (ix1 j)).trans ?_
  refine congrArg (Finset.fold min top · Finset.univ) (funext fun a => congrArg v ?_)
  funext ax; apply Fin.ext
  match ax with
  | ⟨0, _⟩ => rfl
  | ⟨1, _⟩ => rfl

/-- The first output block: each row's nearest predicted point. -/
theorem pay2_apply (x0 : FVec Ideal S1x512x3 .f32) (x1 : FVec Ideal S1x3x4096 .f32) (u : Fin 1) (a : Fin 512) (v : Fin 1) :
    k0_pay2 (F := Ideal) x0 x1 (ix3 u a v) = (Finset.univ : Finset (Fin 4096)).fold min top fun j => tileDist x0 x1 a j := by
  unfold k0_pay2
  dsimp only
  refine (shapeCast_ab_1ab_apply _ _ u a v).trans ?_
  refine (Cert.LibColumnLayouts.vec_as_column _ _ a v).trans ?_
  refine (rowMin_apply _ a).trans ?_
  exact congrArg (Finset.fold min top · Finset.univ) (funext fun j => pay1_apply x0 x1 a j)

/-- This tile's column minima: each predicted point's nearest row of the tile. -/
theorem pay3_apply (x0 : FVec Ideal S1x512x3 .f32) (x1 : FVec Ideal S1x3x4096 .f32) (u : Fin 1) (j : Fin 4096) :
    k0_pay3 (F := Ideal) x0 x1 (ix2 u j) = (Finset.univ : Finset (Fin 512)).fold min top fun a => tileDist x0 x1 a j := by
  unfold k0_pay3
  dsimp only
  refine (shapeCast_a_1a_apply _ _ u j).trans ?_
  refine (colMin_apply _ j).trans ?_
  exact congrArg (Finset.fold min top · Finset.univ) (funext fun a => pay1_apply x0 x1 a j)

/-- At the first tile the scratch row is this tile's column minima. -/
theorem pay4_eq (x0 : FVec Ideal S1x512x3 .f32) (x1 : FVec Ideal S1x3x4096 .f32) : k0_pay4 (F := Ideal) x0 x1 = k0_pay3 (F := Ideal) x0 x1 := by
  unfold k0_pay4
  exact shapeCast_self _ _

/-- At a later tile it is the elementwise minimum of what it held with this tile's column minima. -/
theorem pay5_apply (x0 : FVec Ideal S1x512x3 .f32) (x1 : FVec Ideal S1x3x4096 .f32) (s : FVec Ideal S1x4096 .f32) (i : S1x4096.Idx) :
    k0_pay5 (F := Ideal) x0 x1 s i = min (s i) (k0_pay3 (F := Ideal) x0 x1 i) := by
  unfold k0_pay5
  exact congrFun (shapeCast_self _ _) i

/-- The second output block is the scratch row. -/
theorem pay6_apply (s : FVec Ideal S1x4096 .f32) (u v : Fin 1) (j : Fin 4096) : k0_pay6 (F := Ideal) s (ix3 u v j) = s (ix2 v j) := by
  unfold k0_pay6
  exact shapeCast_ab_1ab_apply _ _ u v j

end Cert.KernelIdeal.Chamfer

end
-- ==== Proof.KernelValue.lean ====
import proofs.«106484_j66271345377749_2_alg».proof.Proof.Data
import proofs.«106484_j66271345377749_2_alg».proof.Proof.Payload

/-!
# What the two output arrays hold after the region, and the program's result

Point t = 8 b + i of the grid handles batch b and the ground-truth rows 512 i, …, 512 i + 511.  Its two input blocks
are those rows and the batch's predicted points (transposed by the host before the region), so the tile's
distances are the specification's.  The first output array therefore ends holding, at (b, n, 0), the distance from
ground-truth point n to its nearest predicted point.  The scratch row after point t is below exactly the bounds that
are below every distance to the rows of tiles 0 … i; at the last tile of a batch that is the distance from each
predicted point to its nearest ground-truth point, which is what the second output array ends holding at (b, 0, j).
The host then averages both arrays and keeps the larger mean.
-/

set_option maxRecDepth 16384

noncomputable section

namespace Cert.KernelIdeal.Chamfer

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.Chamfer Cert.LibMinReduce

variable (m : (ℓ : Loc nD τ sig) → Buf (Elt Ideal) ℓ) (ρ : Dev nD → PrngReg)

/-- The ground-truth cloud and the predicted cloud, as launched. -/
abbrev gts (c : Dev nD) : Cloud := m ((c : Thread nD τ).loc main_arg1)
abbrev preds (c : Dev nD) : Cloud := m ((c : Thread nD τ).loc main_arg0)

/-! ## The grid point's batch and rows -/

theorem lt64 (t : Fin cfg0.N) : t.val < 64 := lt_of_lt_of_eq t.isLt N_0
/-- The batch point `t` works on. -/
def batchOf (t : Fin cfg0.N) : Fin 8 := ⟨t.val / 8, by have := lt64 t; omega⟩
/-- Row `a` of point `t`'s tile, as a row of the whole cloud. -/
def rowOf (t : Fin cfg0.N) (a : Fin 512) : Fin 4096 := ⟨512 * (t.val % 8) + a.val, by have := a.isLt; omega⟩

theorem index0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, win0_0.index t (0 : Fin 3) = t.val / 8 ∧ win0_0.index t (1 : Fin 3) = t.val % 8 ∧ win0_0.index t (2 : Fin 3) = 0)
theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, win0_1.index t (0 : Fin 3) = t.val / 8 ∧ win0_1.index t (1 : Fin 3) = 0 ∧ win0_1.index t (2 : Fin 3) = 0)
theorem index2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, win0_2.index t (0 : Fin 3) = t.val / 8 ∧ win0_2.index t (1 : Fin 3) = t.val % 8 ∧ win0_2.index t (2 : Fin 3) = 0)
theorem index3 : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

/-! ## The input blocks -/

/-- The first input block at point `t` is rows 512 i … of batch b of the ground-truth cloud. -/
theorem gtsBlock_apply (c : Dev nD) (t : Fin cfg0.N) (u : Fin 1) (a : Fin 512) (d : Fin 3) :
    (iblk m c 0 t : FVec Ideal S1x512x3 .f32) (ix3 u a d) = gts m c (ix3 (batchOf t) (rowOf t a) d) := by
  obtain ⟨e0, e1, e2⟩ := index0 t
  show V m c main_arg1 (((cfg0.win 0).blk t).view.emb (ix3 u a d)) = _
  rw [V_main_arg1]
  refine congrArg (m ((c : Thread nD τ).loc main_arg1)) ?_
  funext ax; apply Fin.ext
  match ax with
  | ⟨0, _⟩ => show win0_0.index t (0 : Fin 3) * 1 + 1 * u.val = t.val / 8; omega
  | ⟨1, _⟩ => show win0_0.index t (1 : Fin 3) * 512 + 1 * a.val = 512 * (t.val % 8) + a.val; omega
  | ⟨2, _⟩ => show win0_0.index t (2 : Fin 3) * 3 + 1 * d.val = d.val; omega

/-- The host transposes the predicted cloud before the region. -/
theorem predsT_eq (c : Dev nD) :
    (V m c main_v0 : S8x3x4096.Idx → EReal) = transpose S8x3x4096 [0, 2, 1] (preds m c) transposes_S8x4096x3_S8x3x4096_0_2_1 := by
  show StableHlo.after hostOps0 (fun b => m (c, b)) (Proc.devRef .tc main_v0) = _
  after_results

/-- The second input block at point `t` is batch b of the predicted cloud, one row per coordinate. -/
theorem predsBlock_apply (c : Dev nD) (t : Fin cfg0.N) (u : Fin 1) (d : Fin 3) (j : Fin 4096) :
    (iblk m c 1 t : FVec Ideal S1x3x4096 .f32) (ix3 u d j) = preds m c (ix3 (batchOf t) j d) := by
  obtain ⟨e0, e1, e2⟩ := index1 t
  show (V m c main_v0 : S8x3x4096.Idx → EReal) (((cfg0.win 1).blk t).view.emb (ix3 u d j)) = _
  rw [predsT_eq]
  refine Eq.trans (congrArg _ ?_) (transpose_ix3_021_apply (preds m c) transposes_S8x4096x3_S8x3x4096_0_2_1 (batchOf t) d j)
  funext ax; apply Fin.ext
  match ax with
  | ⟨0, _⟩ => show win0_1.index t (0 : Fin 3) * 1 + 1 * u.val = t.val / 8; omega
  | ⟨1, _⟩ => show win0_1.index t (1 : Fin 3) * 3 + 1 * d.val = d.val; omega
  | ⟨2, _⟩ => show win0_1.index t (2 : Fin 3) * 4096 + 1 * j.val = j.val; omega

/-- So the tile's distances are the clouds' distances. -/
theorem tileDist_eq (c : Dev nD) (t : Fin cfg0.N) (a : Fin 512) (j : Fin 4096) :
    tileDist (iblk m c 0 t) (iblk m c 1 t) a j = sqDist (gts m c) (preds m c) (batchOf t) (rowOf t a) j := by
  unfold tileDist sqDist
  simp only [gtsBlock_apply, predsBlock_apply]

/-! ## The running column minimum -/

/-- After point n the scratch row at column j is below exactly the bounds that are below the start value and below
    the distance from predicted point j to every ground-truth row of the batch up to the end of this tile. -/
theorem colAcc_spec (c : Dev nD) : ∀ (n : ℕ) (hn : n < cfg0.N) (j : Fin 4096) (z : EReal),
    z ≤ colAcc m c n hn (ix2 (0 : Fin 1) j)
      ↔ (z ≤ top ∧ ∀ r : Fin 4096, r.val < 512 * (n % 8 + 1) → z ≤ sqDist (gts m c) (preds m c) (batchOf ⟨n, hn⟩) r j) := by
  have first : ∀ (n : ℕ) (hn : n < cfg0.N) (hF : n % 8 = 0) (j : Fin 4096) (z : EReal),
      z ≤ colAcc m c n hn (ix2 (0 : Fin 1) j)
        ↔ (z ≤ top ∧ ∀ r : Fin 4096, r.val < 512 * (n % 8 + 1) → z ≤ sqDist (gts m c) (preds m c) (batchOf ⟨n, hn⟩) r j) := by
    intro n hn hF j z
    rw [colAcc_first m c ⟨n, hn⟩ hF, pay4_eq, pay3_apply, le_fold_min_univ]
    simp only [tileDist_eq]
    exact below_first_tile (fun r => sqDist (gts m c) (preds m c) (batchOf ⟨n, hn⟩) r j) z top (n % 8) hF
  intro n
  induction n with
  | zero => exact fun hn => first 0 hn rfl
  | succ k ih =>
    intro hn j z
    by_cases hF : (k + 1) % 8 = 0
    · exact first (k + 1) hn hF j z
    · have hk : k < cfg0.N := Nat.lt_of_succ_lt hn
      have hb : batchOf ⟨k, hk⟩ = batchOf ⟨k + 1, hn⟩ := Fin.ext (by show k / 8 = (k + 1) / 8; omega)
      have hi : k % 8 + 1 = (k + 1) % 8 := by omega
      have hprev := ih hk j z
      rw [hb, hi] at hprev
      rw [colAcc_later m c ⟨k + 1, hn⟩ hF, pay5_apply, le_min_iff, pay3_apply, le_fold_min_univ]
      simp only [tileDist_eq]
      refine Iff.trans (and_congr hprev Iff.rfl) ?_
      exact below_through_tile (fun r => sqDist (gts m c) (preds m c) (batchOf ⟨k + 1, hn⟩) r j) z top ((k + 1) % 8) (by omega)

/-! ## The two output arrays after the region -/

/-- What the first output array ends holding: at (b, n, 0) the distance from ground-truth point n to its nearest
    predicted point. -/
def rowsArr (c : Dev nD) : S8x4096x1.Idx → EReal := fun i => nearestPred (gts m c) (preds m c) (i 0) (i 1)
/-- What the second output array ends holding: at (b, 0, j) the distance from predicted point j to its nearest
    ground-truth point. -/
def colsArr (c : Dev nD) : S8x1x4096.Idx → EReal := fun i => nearestGt (gts m c) (preds m c) (i 0) (i 2)

/-- What point `t` writes back of the first output is its block of `rowsArr`. -/
theorem rows_flushed (c : Dev nD) (t : Fin cfg0.N) :
    (dats m 0 c).flushed 2 t = ((cfg0.win 2).blk t).view.read (Elt Ideal) (rowsArr m c) := by
  show (cfg0.win 2).cut (grid0.coords t) ((dats m 0 c).after 2 t) = _
  rw [after_2]
  obtain ⟨e0, e1, e2⟩ := index2 t
  refine funext fun (y : S1x512x1.Idx) => ?_
  obtain ⟨u, a, v, rfl⟩ : ∃ (u : Fin 1) (a : Fin 512) (v : Fin 1), y = ix3 u a v := ⟨y 0, y 1, y 2, eq_ix3 y⟩
  show k0_pay2 (F := Ideal) (iblk m c 0 t) (iblk m c 1 t) (ix3 u a v) = rowsArr m c (((cfg0.win 2).blk t).view.emb (ix3 u a v))
  rw [pay2_apply]
  unfold rowsArr nearestPred
  refine congrArg (Finset.fold min top · Finset.univ) (funext fun j => ?_)
  rw [tileDist_eq]
  refine congrArg₂ (fun b n => sqDist (gts m c) (preds m c) b n j) (Fin.ext ?_) (Fin.ext ?_)
  · show t.val / 8 = win0_2.index t (0 : Fin 3) * 1 + 1 * u.val
    omega
  · show 512 * (t.val % 8) + a.val = win0_2.index t (1 : Fin 3) * 512 + 1 * a.val
    omega

theorem mem_rowsBlk (t : Fin cfg0.N) (i : S8x4096x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v1_0).slice (win0_2.rect t)).set ↔ _
  rw [View.set_slice_whole, Rect.mem_set_unit]
  exact Iff.rfl

/-- Every entry of the first output array is in the block of the point of its batch and tile. -/
theorem rows_cover (i : S8x4096x1.Idx) : ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 1 := (i 2).isLt
  have hN : cfg0.N = 64 := N_0
  obtain ⟨t, ht⟩ : ∃ t : Fin cfg0.N, t.val = 8 * (i 0).val + (i 1).val / 512 := ⟨⟨8 * (i 0).val + (i 1).val / 512, by omega⟩, rfl⟩
  obtain ⟨e0, e1, e2⟩ := index2 t
  refine ⟨t, flush0_2 t, ?_⟩
  rw [mem_rowsBlk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1 ≤ (i 2).val ∧ (i 2).val < win0_2.index t (2 : Fin 3) * 1 + 1; omega

/-- The first output array after the region. -/
theorem rows_final (c : Dev nD) : (dats m 0 c).arrAt 2 cfg0.N = rowsArr m c :=
  (dats m 0 c).arrAt_eq_of_cover 2 (rowsArr m c) (fun t _ => rows_flushed m c t) rows_cover

/-- What a last tile writes back of the second output is its block of `colsArr`. -/
theorem cols_flushed (c : Dev nD) (t : Fin cfg0.N) (hf : (cfg0.win 3).flush t = true) :
    (dats m 0 c).flushed 3 t = ((cfg0.win 3).blk t).view.read (Elt Ideal) (colsArr m c) := by
  have hL : t.val % 8 = 7 := (flush0_3 t).mp hf
  show (cfg0.win 3).cut (grid0.coords t) ((dats m 0 c).after 3 t) = _
  rw [after_3]
  obtain ⟨e0, e1, e2⟩ := index3 t
  refine funext fun (y : S1x1x4096.Idx) => ?_
  obtain ⟨u, v, j, rfl⟩ : ∃ (u : Fin 1) (v : Fin 1) (j : Fin 4096), y = ix3 u v j := ⟨y 0, y 1, y 2, eq_ix3 y⟩
  show k0_pay6 (F := Ideal) (colAcc m c t.val t.isLt) (ix3 u v j) = colsArr m c (((cfg0.win 3).blk t).view.emb (ix3 u v j))
  rw [pay6_apply]
  obtain rfl : v = 0 := Fin.ext (by omega)
  refine eq_of_forall_le_iff fun z => ?_
  rw [colAcc_spec m c t.val t.isLt j z]
  unfold colsArr nearestGt
  rw [le_fold_min_univ, hL]
  have hb : batchOf ⟨t.val, t.isLt⟩ = ((((cfg0.win 3).blk t).view.emb (ix3 u (0 : Fin 1) j)) 0 : Fin 8) := Fin.ext (by
    show t.val / 8 = win0_3.index t (0 : Fin 3) * 1 + 1 * u.val
    omega)
  have hj : j = ((((cfg0.win 3).blk t).view.emb (ix3 u (0 : Fin 1) j)) 2 : Fin 4096) := Fin.ext (by
    show j.val = win0_3.index t (2 : Fin 3) * 4096 + 1 * j.val
    omega)
  rw [← hb, ← hj]
  exact and_congr Iff.rfl ⟨fun h r => h r (by have := r.isLt; omega), fun h r _ => h r⟩

theorem mem_colsBlk (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Every entry of the second output array is in the block the last tile of its batch writes back. -/
theorem cols_cover (i : S8x1x4096.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  have hN : cfg0.N = 64 := N_0
  obtain ⟨t, ht⟩ : ∃ t : Fin cfg0.N, t.val = 8 * (i 0).val + 7 := ⟨⟨8 * (i 0).val + 7, by omega⟩, rfl⟩
  obtain ⟨e0, e1, e2⟩ := index3 t
  refine ⟨t, (flush0_3 t).mpr (by omega), ?_⟩
  rw [mem_colsBlk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

/-- The second output array after the region. -/
theorem cols_final (c : Dev nD) : (dats m 0 c).arrAt 3 cfg0.N = colsArr m c :=
  (dats m 0 c).arrAt_eq_of_cover 3 (colsArr m c) (fun t hf => cols_flushed m c t hf) cols_cover

/-! ## The host lines after the region -/

/-- The program's result from the two output arrays: both averaged, the larger mean kept. -/
def hostTail (cols : FVec Ideal S8x1x4096 .f32) (rows : FVec Ideal S8x4096x1 .f32) : FVec Ideal S_ .f32 :=
  maximumf
    (Host.divf (F := Ideal) (Host.reduceAdd (F := Ideal) cols (constant (F := Ideal) S_ .f32 0x00000000#32) reducesTo_S8x1x4096_S_d0_1_2 h_S_)
      (constant (F := Ideal) S_ .f32 0x47000000#32))
    (Host.divf (F := Ideal) (Host.reduceAdd (F := Ideal) rows (constant (F := Ideal) S_ .f32 0x00000000#32) reducesTo_S8x4096x1_S_d0_1_2 h_S_)
      (constant (F := Ideal) S_ .f32 0x47000000#32))

theorem tail_eq (c : Dev nD) :
    Pipeline.afterTail₀ cfgs (dats m) 0 (V0 m) [hostOps1] c main_v6 = hostTail (colsArr m c) (rowsArr m c) := by
  unfold Pipeline.afterTail₀
  show StableHlo.after hostOps1 _ (Proc.devRef .tc main_v6) = _
  after_results
  have e3 : Pipeline.withArrays (cfgs 0).spec c (V0 m c) (fun w => (dats m 0 c).arrAt w (cfgs 0).N) (Proc.devRef .tc main_v1_1) = colsArr m c :=
    (Pipeline.withArrays_arr spec0 launch0.win.arr_inj c _ _ 3).trans (cols_final m c)
  have e2 : Pipeline.withArrays (cfgs 0).spec c (V0 m c) (fun w => (dats m 0 c).arrAt w (cfgs 0).N) (Proc.devRef .tc main_v1_0) = rowsArr m c :=
    (Pipeline.withArrays_arr spec0 launch0.win.arr_inj c _ _ 2).trans (rows_final m c)
  rw [e3, e2]
  rfl

/-! ## The two means are the specification's -/

/-- A [8, 1, 4096] index without its unit axis. -/
def dropMid : (⟨3, ![8, 1, 4096]⟩ : Shape).Idx ≃ (⟨2, ![8, 4096]⟩ : Shape).Idx where
  toFun q := ix2 (q 0) (q 2)
  invFun r := ix3 (r 0) (0 : Fin 1) (r 1)
  left_inv q := by
    funext a; apply Fin.ext
    match a with
    | ⟨0, _⟩ => rfl
    | ⟨1, _⟩ => show 0 = (q 1).val; have h : (q 1).val < 1 := (q 1).isLt; omega
    | ⟨2, _⟩ => rfl
  right_inv r := by
    funext a; apply Fin.ext
    match a with
    | ⟨0, _⟩ => rfl
    | ⟨1, _⟩ => rfl

/-- A [8, 4096, 1] index without its unit axis. -/
def dropLast : (⟨3, ![8, 4096, 1]⟩ : Shape).Idx ≃ (⟨2, ![8, 4096]⟩ : Shape).Idx where
  toFun q := ix2 (q 0) (q 1)
  invFun r := ix3 (r 0) (r 1) (0 : Fin 1)
  left_inv q := by
    funext a; apply Fin.ext
    match a with
    | ⟨0, _⟩ => rfl
    | ⟨1, _⟩ => rfl
    | ⟨2, _⟩ => show 0 = (q 2).val; have h : (q 2).val < 1 := (q 2).isLt; omega
  right_inv r := by
    funext a; apply Fin.ext
    match a with
    | ⟨0, _⟩ => rfl
    | ⟨1, _⟩ => rfl

theorem colsTotal (cols : FVec Ideal S8x1x4096 .f32) (i : S_.Idx) :
    Host.reduceAdd (F := Ideal) cols (constant (F := Ideal) S_ .f32 0x00000000#32) reducesTo_S8x1x4096_S_d0_1_2 h_S_ i
      = zero + ∑ q : S8x1x4096.Idx, cols q := by
  simp only [Host.reduceAdd, Ideal.hostReduceAdd_def]
  exact Ideal.hostReduceAdd_total reducesTo_S8x1x4096_S_d0_1_2 (fun b => b.elim0) cols _ i

theorem rowsTotal (rows : FVec Ideal S8x4096x1 .f32) (i : S_.Idx) :
    Host.reduceAdd (F := Ideal) rows (constant (F := Ideal) S_ .f32 0x00000000#32) reducesTo_S8x4096x1_S_d0_1_2 h_S_ i
      = zero + ∑ q : S8x4096x1.Idx, rows q := by
  simp only [Host.reduceAdd, Ideal.hostReduceAdd_def]
  exact Ideal.hostReduceAdd_total reducesTo_S8x4096x1_S_d0_1_2 (fun b => b.elim0) rows _ i

/-- The host's two means and their maximum are the loss of the two clouds. -/
theorem hostTail_eq (c : Dev nD) : hostTail (colsArr m c) (rowsArr m c) = fun _ => loss (gts m c) (preds m c) := by
  funext i
  unfold hostTail loss
  show max (Ideal.div (Host.reduceAdd (F := Ideal) (colsArr m c) (constant (F := Ideal) S_ .f32 0x00000000#32) reducesTo_S8x1x4096_S_d0_1_2 h_S_ i) count)
      (Ideal.div (Host.reduceAdd (F := Ideal) (rowsArr m c) (constant (F := Ideal) S_ .f32 0x00000000#32) reducesTo_S8x4096x1_S_d0_1_2 h_S_ i) count) = _
  rw [colsTotal, rowsTotal]
  refine congrArg₂ max (congrArg₂ Ideal.div (congrArg (zero + ·) ?_) rfl) (congrArg₂ Ideal.div (congrArg (zero + ·) ?_) rfl)
  · exact Equiv.sum_comp dropMid (fun r => nearestGt (gts m c) (preds m c) (r 0) (r 1))
  · exact Equiv.sum_comp dropLast (fun r => nearestPred (gts m c) (preds m c) (r 0) (r 1))

/-! ## The run, read -/

/-- Every weakly fair execution of the idealized kernel program terminates without a fault, its result the loss of the
    two clouds as launched, and both clouds unchanged. -/
theorem run : θ_run defs (onTc (τ := τ) (main (F := Ideal))) ⟨m, fun _ => 0, ρ⟩ (fun r => ∀ c : Dev nD,
      r.2.mem ((c.tc : Thread nD τ).loc main_v6) = (fun _ => loss (gts m c) (preds m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans ((tail_eq m c).trans (hostTail_eq m c)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.Chamfer

end
-- ==== Proof.RefValue.lean ====
import proofs.«106484_j66271345377749_2_alg».proof.Proof.Gen.ReferenceIdeal.Read
import proofs.«106484_j66271345377749_2_alg».proof.Proof.Spec
import Idealize.ShloMosaic.PureOps.Reduce

/-!
# The reference computes the Chamfer loss

The reference forms the whole [8, 4096, 4096] tensor of squared distances in the same expanded form, takes its
minima along either point axis, averages each and returns the larger mean.  Read one operation at a time it is
the specification, with the ground-truth cloud its second argument and the predicted cloud its first.
-/

set_option maxRecDepth 16384

noncomputable section

namespace Cert.ReferenceIdeal.RefValue

open Idealize.ShloMosaic Idealize.ShloMosaic.ValueIdx Cert.ReferenceIdeal Cert.ReferenceIdeal.Gen Cert.ReferenceIdeal.Read Cert.Chamfer

/-- The distance tensor at (b, n, j): the squared distance from ground-truth point n to predicted point j. -/
theorem dist_apply (p g : FVec Ideal S8x4096x3 .f32) (b : Fin 8) (n j : Fin 4096) :
    val_main_v12 (F := Ideal) p g (ix3 b n j) = sqDist g p b n j := by
  have e1 : ∀ k, idx_main_v1 (idx_main_v5 (idx_main_v7 (ix3 b n j))) k = ix3 b n k := fun k => funext fun a => Fin.ext (by
    match a with | ⟨0, _⟩ => rfl | ⟨1, _⟩ => rfl | ⟨2, _⟩ => rfl)
  have e3 : ∀ k, idx_main_v3 (idx_main_v6 (idx_main_v8 (ix3 b n j))) k = ix3 b j k := fun k => funext fun a => Fin.ext (by
    match a with | ⟨0, _⟩ => rfl | ⟨1, _⟩ => rfl | ⟨2, _⟩ => rfl)
  have el : ∀ k, lidx_main_v4 (ix3 b n j) k = ix3 b n k := fun k => funext fun a => Fin.ext (by
    match a with | ⟨0, _⟩ => rfl | ⟨1, _⟩ => rfl | ⟨2, _⟩ => rfl)
  have er : ∀ k, ridx_main_v4 (ix3 b n j) k = ix3 b j k := fun k => funext fun a => Fin.ext (by
    match a with | ⟨0, _⟩ => rfl | ⟨1, _⟩ => rfl | ⟨2, _⟩ => rfl)
  rw [val_main_v12_apply, val_main_v9_apply, val_main_v11_apply, val_main_v7_apply, val_main_v5_apply, val_main_v1_apply,
    val_main_v8_apply, val_main_v6_apply, val_main_v3_apply, val_main_v10_apply, val_main_v4_apply]
  simp only [e1, e3, el, er, val_main_v0_apply, val_main_v2_apply, val_main_cst_apply, val_main_cst_0_apply, val_main_cst_1_apply,
    Ideal.subf_def, Ideal.addf_def, Ideal.mulf_def, Ideal.ofBits_def, Ideal.ofBits_zero_f32, zero_add]
  rfl

/-- The minimum along the ground-truth axis: each predicted point's nearest ground-truth point. -/
theorem overGt_apply (p g : FVec Ideal S8x4096x3 .f32) (b : Fin 8) (j : Fin 4096) :
    val_main_v13 (F := Ideal) p g (ix2 b j) = nearestGt g p b j := by
  unfold val_main_v13 nearestGt
  refine (Host.reduce_eq_fold_single FloatOps.minimumf _ _ reducesTo_S8x4096x4096_S8x4096_d1 (by decide) h_S_ (ix2 b j)).trans ?_
  refine congrArg (Finset.fold min top · Finset.univ) (funext fun n => ?_)
  refine Eq.trans (congrArg (val_main_v12 (F := Ideal) p g) ?_) (dist_apply p g b n j)
  funext a; apply Fin.ext
  match a with
  | ⟨0, _⟩ => rfl
  | ⟨1, _⟩ => rfl
  | ⟨2, _⟩ => rfl

/-- The minimum along the predicted axis: each ground-truth point's nearest predicted point. -/
theorem overPred_apply (p g : FVec Ideal S8x4096x3 .f32) (b : Fin 8) (n : Fin 4096) :
    val_main_v16 (F := Ideal) p g (ix2 b n) = nearestPred g p b n := by
  unfold val_main_v16 nearestPred
  refine (Host.reduce_eq_fold_single FloatOps.minimumf _ _ reducesTo_S8x4096x4096_S8x4096_d2 (by decide) h_S_ (ix2 b n)).trans ?_
  refine congrArg (Finset.fold min top · Finset.univ) (funext fun j => ?_)
  refine Eq.trans (congrArg (val_main_v12 (F := Ideal) p g) ?_) (dist_apply p g b n j)
  funext a; apply Fin.ext
  match a with
  | ⟨0, _⟩ => rfl
  | ⟨1, _⟩ => rfl
  | ⟨2, _⟩ => rfl

/-- The reference's result is the loss of the two clouds. -/
theorem result_eq (p g : FVec Ideal S8x4096x3 .f32) : val_main_v19 (F := Ideal) p g = fun _ => loss g p := by
  funext i
  rw [val_main_v19_apply, val_main_v15_apply, val_main_v18_apply, val_main_v14_apply, val_main_v17_apply]
  unfold loss
  refine congrArg₂ max (congrArg₂ Ideal.div (congrArg₂ (· + ·) rfl (Finset.sum_congr rfl fun q _ => ?_)) rfl)
    (congrArg₂ Ideal.div (congrArg₂ (· + ·) rfl (Finset.sum_congr rfl fun q _ => ?_)) rfl)
  · exact (congrArg (val_main_v13 (F := Ideal) p g) (eq_ix2 q)).trans (overGt_apply p g (q 0) (q 1))
  · exact (congrArg (val_main_v16 (F := Ideal) p g) (eq_ix2 q)).trans (overPred_apply p g (q 0) (q 1))

end Cert.ReferenceIdeal.RefValue

end
-- ==== Proof.lean ====
/-
  The certificate of the Chamfer-loss kernel against its jnp reference.

  Both programs compute, for 8 batches of 4096 ground-truth points g and 4096 predicted points p in 3-space, the squared
  distances in the expanded form (|g|^2 + |p|^2) - 2 <g, p>, the distance from every point of either cloud to the nearest point
  of the other, the mean of each, and the larger mean.  The kernel walks a grid (batch, tile of 512 ground-truth rows): a
  tile's row minima are complete at once; the column minima are folded tile by tile into a scratch row, which the last tile of
  a batch copies out.  A minimum over 4096 rows is the minimum of the 8 tile minima, and a sum over an array with a unit axis is
  the sum without that axis, so on the extended reals both programs return the same number at every input: the value
  claim never uses finiteness.  The frames are the body run at each of the three kinds of grid point (first, middle and last
  tile of a batch) under the pipeline's launch theorem, once at the word-level instance and once at the ideal one.
-/
import proofs.«106484_j66271345377749_2_alg».proof.Defs
import proofs.«106484_j66271345377749_2_alg».proof.Proof.Gen.Kernel
import proofs.«106484_j66271345377749_2_alg».proof.Proof.Gen.KernelIdeal
import proofs.«106484_j66271345377749_2_alg».proof.Proof.Gen.ReferenceIdeal
import proofs.«106484_j66271345377749_2_alg».proof.Proof.Gen.Pre_finite_inputs
import proofs.«106484_j66271345377749_2_alg».proof.Proof.Gen.ReferenceIdeal.Run
import proofs.«106484_j66271345377749_2_alg».proof.Proof.Gen.ReferenceIdeal.Read
import proofs.«106484_j66271345377749_2_alg».proof.Proof.DataBits
import proofs.«106484_j66271345377749_2_alg».proof.Proof.KernelValue
import proofs.«106484_j66271345377749_2_alg».proof.Proof.RefValue

noncomputable section

namespace Cert.Proof

open Idealize.ShloMosaic Idealize.SL.Sem

/-- The word-level kernel program runs to the end and leaves both clouds as launched. -/
theorem frame_kernel : Cert.frame_Kernel := fun m ρ _ => Cert.Kernel.Chamfer.frame m ρ

/-- So does the idealized kernel program. -/
theorem frame_kernelIdeal : Cert.frame_KernelIdeal := fun m ρ _ => Cert.KernelIdeal.Chamfer.frame m ρ

/-- The reference runs to the end and leaves both clouds as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text. -/
theorem preserves : Cert.preserves_Kernel_KernelIdeal := trivial

/-- From memories that agree on the two clouds both programs end with the loss of those clouds. -/
theorem algebraic : Cert.algebraic_KernelIdeal_ReferenceIdeal := by
  intro m ρ m' ρ' _ hagree
  refine ⟨fun c => (fun _ => Cert.Chamfer.loss (Cert.KernelIdeal.Chamfer.gts m c) (Cert.KernelIdeal.Chamfer.preds m c)),
    Cert.KernelIdeal.Chamfer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
